-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048 .f32) (main_arg13 : FVec F S2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x2048 .f32) (main_arg1 : FVec F S8192x2048 .f32) (main_arg2 : FVec F S8192x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S2048x256 : Shape := ⟨2, ![2048, 256]⟩
abbrev S1x256 : Shape := ⟨2, ![1, 256]⟩
abbrev S256x256 : Shape := ⟨2, ![256, 256]⟩

abbrev nBuf : Space → Nat
  | .hbm => 29
  | .vmem => 34
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .bf16 = 32 ∨ (Rect.block (s := S2048x2048) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .bf16 = 32 ∨ (Rect.block (s := S2048x2048) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S8192x2048.size a
  hwx0_14 : ∀ i : grid0.Coords, EltTy.bits .f32 = 32 ∨ (Rect.block (s := S8192x2048) S256x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S8192x2048.size a
  hwx0_15 : ∀ i : grid0.Coords, EltTy.bits .f32 = 32 ∨ (Rect.block (s := S8192x2048) S256x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S8192x2048.size a
  hwx0_16 : ∀ i : grid0.Coords, EltTy.bits .f32 = 32 ∨ (Rect.block (s := S8192x2048) S256x256.size (cc0_transform_16 i) (hinb0_16 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S256x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v12_0) S256x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v12_1) S256x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x8192, .f32⟩
  | .hbm, ⟨16, _⟩ => ⟨S2048x8192, .f32⟩
  | .hbm, ⟨17, _⟩ => ⟨S8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.LstmSpec.lean ====
/-
  The LSTM cell as ONE function of its fifteen argument arrays, index by index, on the extended reals.

  With x, h, c : [8192, 2048], eight weight matrices W : [2048, 2048] and four bias vectors b : [2048], a gate's
  pre-activation at row r and column n is

      gate x h Wx Wh b r n = (sum_k x[r,k] * Wx[k,n] + sum_k h[r,k] * Wh[k,n]) + b[n],

  and the cell and hidden states are

      cell[r,n] = logistic(gate_f) * c[r,n] + logistic(gate_i) * tanh(gate_g)
      hid [r,n] = logistic(gate_o) * tanh(cell[r,n]).

  Both programs compute exactly these terms — the same two sums over k, added in the same order, the bias last — so no
  law of the extended reals beyond reading each side at an index is needed, and finiteness of the inputs is never used.

  The second half states the same formula over BLOCKS: a tile of 256 rows of x and h, a tile of 256 columns of each
  weight matrix and bias, and the 256 x 256 tile of c. Tile (I, J) of the cell state depends on rows I*256 .. I*256+255
  of x and h and on columns J*256 .. J*256+255 of the weights and biases only, and is the formula above at row I*256 + p
  and column J*256 + q.
-/
import Idealize.ShloMosaic.PureOps.Ideal
import Idealize.ShloMosaic.Lib.ValueIdx

noncomputable section

namespace Cert.Lstm

open Idealize.ShloMosaic Idealize.ShloMosaic.ValueIdx
open scoped BigOperators

/-- Activations and states: 8192 rows of 2048. -/
abbrev SAct : Shape := ⟨2, ![8192, 2048]⟩
/-- A weight matrix: 2048 by 2048. -/
abbrev SWt : Shape := ⟨2, ![2048, 2048]⟩
/-- A bias vector: 2048. -/
abbrev SBias : Shape := ⟨1, ![2048]⟩

/-- The fifteen arrays an LSTM cell step reads, as extended reals. -/
structure Args where
  x : SAct.Idx → EReal
  h : SAct.Idx → EReal
  c : SAct.Idx → EReal
  Wii : SWt.Idx → EReal
  Wif : SWt.Idx → EReal
  Wig : SWt.Idx → EReal
  Wio : SWt.Idx → EReal
  Whi : SWt.Idx → EReal
  Whf : SWt.Idx → EReal
  Whg : SWt.Idx → EReal
  Who : SWt.Idx → EReal
  bi : SBias.Idx → EReal
  bf : SBias.Idx → EReal
  bg : SBias.Idx → EReal
  bo : SBias.Idx → EReal

/-- A gate's pre-activation at row `r`, column `n`: `(x W_x + h W_h)[r, n] + b[n]`, the two products added first. -/
def gate (x h : SAct.Idx → EReal) (Wx Wh : SWt.Idx → EReal) (b : SBias.Idx → EReal) (r : Fin 8192) (n : Fin 2048) : EReal :=
  ((∑ k : Fin 2048, x (ix2 r k) * Wx (ix2 k n)) + ∑ k : Fin 2048, h (ix2 r k) * Wh (ix2 k n)) + b (ix1 n)

/-- The new cell state at `(r, n)`: forget gate times the old state plus input gate times the candidate. -/
def cell (A : Args) (r : Fin 8192) (n : Fin 2048) : EReal :=
  Ideal.logistic (gate A.x A.h A.Wif A.Whf A.bf r n) * A.c (ix2 r n)
    + Ideal.logistic (gate A.x A.h A.Wii A.Whi A.bi r n) * Ideal.tanh (gate A.x A.h A.Wig A.Whg A.bg r n)

/-- The new hidden state at `(r, n)`: output gate times `tanh` of the new cell state. -/
def hid (A : Args) (r : Fin 8192) (n : Fin 2048) : EReal :=
  Ideal.logistic (gate A.x A.h A.Wio A.Who A.bo r n) * Ideal.tanh (cell A r n)

/-- The new cell state as an array. -/
def cellArr (A : Args) : SAct.Idx → EReal := fun j => cell A (j 0) (j 1)
/-- The new hidden state as an array. -/
def hidArr (A : Args) : SAct.Idx → EReal := fun j => hid A (j 0) (j 1)

/-! ## The same formula over tiles -/

/-- A tile of 256 whole rows of an activation array. -/
abbrev SRows : Shape := ⟨2, ![256, 2048]⟩
/-- A tile of 256 whole columns of a weight matrix. -/
abbrev SCols : Shape := ⟨2, ![2048, 256]⟩
/-- 256 entries of a bias laid as one row. -/
abbrev SBRow : Shape := ⟨2, ![1, 256]⟩
/-- A 256 by 256 tile of a state array. -/
abbrev STile : Shape := ⟨2, ![256, 256]⟩

/-- Row `I * 256 + p` of the array, for `I < 32` and `p < 256`. -/
def rowOf (I : Fin 32) (p : Fin 256) : Fin 8192 := ⟨I.val * 256 + p.val, by have := I.isLt; have := p.isLt; omega⟩
/-- Column `J * 256 + q` of the array, for `J < 8` and `q < 256`. -/
def colOf (J : Fin 8) (q : Fin 256) : Fin 2048 := ⟨J.val * 256 + q.val, by have := J.isLt; have := q.isLt; omega⟩

/-- Rows `I*256 ..` of an activation array. -/
def rowsBlk (x : SAct.Idx → EReal) (I : Fin 32) : SRows.Idx → EReal := fun y => x (ix2 (rowOf I (y 0)) (y 1))
/-- Columns `J*256 ..` of a weight matrix. -/
def colsBlk (W : SWt.Idx → EReal) (J : Fin 8) : SCols.Idx → EReal := fun y => W (ix2 (y 0) (colOf J (y 1)))
/-- Entries `J*256 ..` of a bias, as one row. -/
def biasBlk (b : SBias.Idx → EReal) (J : Fin 8) : SBRow.Idx → EReal := fun y => b (ix1 (colOf J (y 1)))
/-- Tile `(I, J)` of a state array. -/
def tileBlk (c : SAct.Idx → EReal) (I : Fin 32) (J : Fin 8) : STile.Idx → EReal := fun y => c (ix2 (rowOf I (y 0)) (colOf J (y 1)))

/-- A gate's pre-activation inside a tile, from a row tile of x and h, a column tile of the two weights and the bias row. -/
def gateBlk (X H : SRows.Idx → EReal) (Wx Wh : SCols.Idx → EReal) (b : SBRow.Idx → EReal) (p q : Fin 256) : EReal :=
  ((∑ k : Fin 2048, X (ix2 p k) * Wx (ix2 k q)) + ∑ k : Fin 2048, H (ix2 p k) * Wh (ix2 k q)) + b (ix2 0 q)

/-- The pre-activation computed from tiles `I` of the rows and `J` of the columns is the array's at row `I*256 + p`,
    column `J*256 + q`: the sums range over the same `k`, and each factor is read at the same entry. -/
theorem gateBlk_tiles (x h : SAct.Idx → EReal) (Wx Wh : SWt.Idx → EReal) (b : SBias.Idx → EReal) (I : Fin 32) (J : Fin 8)
    (p q : Fin 256) :
    gateBlk (rowsBlk x I) (rowsBlk h I) (colsBlk Wx J) (colsBlk Wh J) (biasBlk b J) p q
      = gate x h Wx Wh b (rowOf I p) (colOf J q) := rfl

/-- The new cell state inside a tile, from the tiles of x, h, the input, forget and candidate weights and biases, and c. -/
def cellBlk (X H : SRows.Idx → EReal) (Wxi Whi Wxf Whf Wxg Whg : SCols.Idx → EReal) (bi bf bg : SBRow.Idx → EReal)
    (C : STile.Idx → EReal) (p q : Fin 256) : EReal :=
  Ideal.logistic (gateBlk X H Wxf Whf bf p q) * C (ix2 p q)
    + Ideal.logistic (gateBlk X H Wxi Whi bi p q) * Ideal.tanh (gateBlk X H Wxg Whg bg p q)

/-- The new hidden state inside a tile: the output gate's tiles as well. -/
def hidBlk (X H : SRows.Idx → EReal) (Wxi Whi Wxf Whf Wxg Whg Wxo Who : SCols.Idx → EReal) (bi bf bg bo : SBRow.Idx → EReal)
    (C : STile.Idx → EReal) (p q : Fin 256) : EReal :=
  Ideal.logistic (gateBlk X H Wxo Who bo p q) * Ideal.tanh (cellBlk X H Wxi Whi Wxf Whf Wxg Whg bi bf bg C p q)

/-- The arrays' tiles at grid position `(I, J)` give the cell state at row `I*256 + p`, column `J*256 + q`. -/
theorem cellBlk_tiles (A : Args) (I : Fin 32) (J : Fin 8) (p q : Fin 256) :
    cellBlk (rowsBlk A.x I) (rowsBlk A.h I) (colsBlk A.Wii J) (colsBlk A.Whi J) (colsBlk A.Wif J) (colsBlk A.Whf J)
        (colsBlk A.Wig J) (colsBlk A.Whg J) (biasBlk A.bi J) (biasBlk A.bf J) (biasBlk A.bg J) (tileBlk A.c I J) p q
      = cell A (rowOf I p) (colOf J q) := rfl

/-- The arrays' tiles at grid position `(I, J)` give the hidden state at row `I*256 + p`, column `J*256 + q`. -/
theorem hidBlk_tiles (A : Args) (I : Fin 32) (J : Fin 8) (p q : Fin 256) :
    hidBlk (rowsBlk A.x I) (rowsBlk A.h I) (colsBlk A.Wii J) (colsBlk A.Whi J) (colsBlk A.Wif J) (colsBlk A.Whf J)
        (colsBlk A.Wig J) (colsBlk A.Whg J) (colsBlk A.Wio J) (colsBlk A.Who J)
        (biasBlk A.bi J) (biasBlk A.bf J) (biasBlk A.bg J) (biasBlk A.bo J) (tileBlk A.c I J) p q
      = hid A (rowOf I p) (colOf J q) := rfl

end Cert.Lstm

end
-- ==== Proof.LstmRef.lean ====
/-
  The reference program's two results are the LSTM cell of the specification, index by index.

  The reference lays the four input weight matrices side by side as one [2048, 8192] matrix (likewise the hidden weights,
  and the four biases end to end as one vector of 8192), takes ONE product of x with it and one of h, adds the bias, and
  cuts the [8192, 8192] result back into four column bands of 2048. Column g*2048 + n of the wide matrix is column n of the
  g-th matrix, so band g of the result at (r, n) is

      (sum_k x[r,k] * W_g[k,n] + sum_k h[r,k] * Wh_g[k,n]) + b_g[n]

  — the specification's `gate`, with the same sums in the same order. Its sigmoid is spelled 1 / (1 + exp(-v)) with the
  float word of 1.0, which is the extended real 1; on the extended reals that quotient IS `Ideal.logistic v`.
-/
import proofs.«137950_j20074677141565_2_alg».proof.Proof.Gen.ReferenceIdeal.Read
import proofs.«137950_j20074677141565_2_alg».proof.Proof.LstmSpec
import Idealize.ShloMosaic.Lib.IdealHost
import Idealize.ShloMosaic.Lib.Pipeline.Value
import Idealize.ShloMosaic.Lib.ValueIdx

noncomputable section

namespace Cert.Lstm.Ref

open Cert.ReferenceIdeal Cert.ReferenceIdeal.Read Cert.Lstm Idealize.ShloMosaic Idealize.ShloMosaic.ValueIdx
open scoped BigOperators

/-- Entry `g * 2048 + n` of an axis of 8192 laid out as four bands of 2048. -/
def band (g : Fin 4) (n : Fin 2048) : Fin 8192 := ⟨g.val * 2048 + n.val, by have := g.isLt; have := n.isLt; omega⟩

/-- The g-th of four things. -/
def pick {α : Type} (g : Fin 4) (a b c d : α) : α :=
  match g with
  | ⟨0, _⟩ => a
  | ⟨1, _⟩ => b
  | ⟨2, _⟩ => c
  | ⟨3, _⟩ => d

/-! ## Concatenations read at an index

Piece `g` of four equal pieces laid along an axis starts at `g * 2048`: the entry at `g * 2048 + n` is piece `g`'s
entry `n`, the other coordinates unchanged. -/

theorem cat_cols0 (a b c d : SWt.Idx → EReal)
    (hc : Shape.Concatenates [S2048x2048, S2048x2048, S2048x2048, S2048x2048] S2048x8192 1) (k n : Fin 2048) :
    concatenate S2048x8192 1 [⟨S2048x2048, a⟩, ⟨S2048x2048, b⟩, ⟨S2048x2048, c⟩, ⟨S2048x2048, d⟩] hc (ix2 k (band 0 n))
      = a (ix2 k n) := by
  refine concatenate_apply_piece (t := S2048x8192) 1 [⟨S2048x2048, a⟩, ⟨S2048x2048, b⟩, ⟨S2048x2048, c⟩, ⟨S2048x2048, d⟩] hc
    (ix2 k (band 0 n)) 0 ?hk S2048x2048 a ?hxk rfl 0 ?hpre (ix2 k n) ?hi ?ha
  case hk => show 0 < 4; omega
  case hxk => rfl
  case hpre => rfl
  case hi =>
    intro b' hb
    match b' with
    | ⟨0, _⟩ => rfl
    | ⟨1, _⟩ => exact absurd rfl hb
  case ha => show 0 + n.val = 0 * 2048 + n.val; omega

theorem cat_cols1 (a b c d : SWt.Idx → EReal)
    (hc : Shape.Concatenates [S2048x2048, S2048x2048, S2048x2048, S2048x2048] S2048x8192 1) (k n : Fin 2048) :
    concatenate S2048x8192 1 [⟨S2048x2048, a⟩, ⟨S2048x2048, b⟩, ⟨S2048x2048, c⟩, ⟨S2048x2048, d⟩] hc (ix2 k (band 1 n))
      = b (ix2 k n) := by
  refine concatenate_apply_piece (t := S2048x8192) 1 [⟨S2048x2048, a⟩, ⟨S2048x2048, b⟩, ⟨S2048x2048, c⟩, ⟨S2048x2048, d⟩] hc
    (ix2 k (band 1 n)) 1 ?hk S2048x2048 b ?hxk rfl 2048 ?hpre (ix2 k n) ?hi ?ha
  case hk => show 1 < 4; omega
  case hxk => rfl
  case hpre => rfl
  case hi =>
    intro b' hb
    match b' with
    | ⟨0, _⟩ => rfl
    | ⟨1, _⟩ => exact absurd rfl hb
  case ha => show 2048 + n.val = 1 * 2048 + n.val; omega

theorem cat_cols2 (a b c d : SWt.Idx → EReal)
    (hc : Shape.Concatenates [S2048x2048, S2048x2048, S2048x2048, S2048x2048] S2048x8192 1) (k n : Fin 2048) :
    concatenate S2048x8192 1 [⟨S2048x2048, a⟩, ⟨S2048x2048, b⟩, ⟨S2048x2048, c⟩, ⟨S2048x2048, d⟩] hc (ix2 k (band 2 n))
      = c (ix2 k n) := by
  refine concatenate_apply_piece (t := S2048x8192) 1 [⟨S2048x2048, a⟩, ⟨S2048x2048, b⟩, ⟨S2048x2048, c⟩, ⟨S2048x2048, d⟩] hc
    (ix2 k (band 2 n)) 2 ?hk S2048x2048 c ?hxk rfl 4096 ?hpre (ix2 k n) ?hi ?ha
  case hk => show 2 < 4; omega
  case hxk => rfl
  case hpre => rfl
  case hi =>
    intro b' hb
    match b' with
    | ⟨0, _⟩ => rfl
    | ⟨1, _⟩ => exact absurd rfl hb
  case ha => show 4096 + n.val = 2 * 2048 + n.val; omega

theorem cat_cols3 (a b c d : SWt.Idx → EReal)
    (hc : Shape.Concatenates [S2048x2048, S2048x2048, S2048x2048, S2048x2048] S2048x8192 1) (k n : Fin 2048) :
    concatenate S2048x8192 1 [⟨S2048x2048, a⟩, ⟨S2048x2048, b⟩, ⟨S2048x2048, c⟩, ⟨S2048x2048, d⟩] hc (ix2 k (band 3 n))
      = d (ix2 k n) := by
  refine concatenate_apply_piece (t := S2048x8192) 1 [⟨S2048x2048, a⟩, ⟨S2048x2048, b⟩, ⟨S2048x2048, c⟩, ⟨S2048x2048, d⟩] hc
    (ix2 k (band 3 n)) 3 ?hk S2048x2048 d ?hxk rfl 6144 ?hpre (ix2 k n) ?hi ?ha
  case hk => show 3 < 4; omega
  case hxk => rfl
  case hpre => rfl
  case hi =>
    intro b' hb
    match b' with
    | ⟨0, _⟩ => rfl
    | ⟨1, _⟩ => exact absurd rfl hb
  case ha => show 6144 + n.val = 3 * 2048 + n.val; omega

/-- Four matrices side by side, read at column `g*2048 + n`: the g-th matrix at column `n`. -/
theorem cat_cols (a b c d : SWt.Idx → EReal)
    (hc : Shape.Concatenates [S2048x2048, S2048x2048, S2048x2048, S2048x2048] S2048x8192 1) (g : Fin 4) (k n : Fin 2048) :
    concatenate S2048x8192 1 [⟨S2048x2048, a⟩, ⟨S2048x2048, b⟩, ⟨S2048x2048, c⟩, ⟨S2048x2048, d⟩] hc (ix2 k (band g n))
      = pick g a b c d (ix2 k n) := by
  match g with
  | ⟨0, _⟩ => exact cat_cols0 a b c d hc k n
  | ⟨1, _⟩ => exact cat_cols1 a b c d hc k n
  | ⟨2, _⟩ => exact cat_cols2 a b c d hc k n
  | ⟨3, _⟩ => exact cat_cols3 a b c d hc k n

theorem cat_bias0 (a b c d : SBias.Idx → EReal)
    (hc : Shape.Concatenates [S2048, S2048, S2048, S2048] S8192 0) (n : Fin 2048) :
    concatenate S8192 0 [⟨S2048, a⟩, ⟨S2048, b⟩, ⟨S2048, c⟩, ⟨S2048, d⟩] hc (ix1 (band 0 n)) = a (ix1 n) := by
  refine concatenate_apply_piece (t := S8192) 0 [⟨S2048, a⟩, ⟨S2048, b⟩, ⟨S2048, c⟩, ⟨S2048, d⟩] hc
    (ix1 (band 0 n)) 0 ?hk S2048 a ?hxk rfl 0 ?hpre (ix1 n) ?hi ?ha
  case hk => show 0 < 4; omega
  case hxk => rfl
  case hpre => rfl
  case hi =>
    intro b' hb
    match b' with
    | ⟨0, _⟩ => exact absurd rfl hb
  case ha => show 0 + n.val = 0 * 2048 + n.val; omega

theorem cat_bias1 (a b c d : SBias.Idx → EReal)
    (hc : Shape.Concatenates [S2048, S2048, S2048, S2048] S8192 0) (n : Fin 2048) :
    concatenate S8192 0 [⟨S2048, a⟩, ⟨S2048, b⟩, ⟨S2048, c⟩, ⟨S2048, d⟩] hc (ix1 (band 1 n)) = b (ix1 n) := by
  refine concatenate_apply_piece (t := S8192) 0 [⟨S2048, a⟩, ⟨S2048, b⟩, ⟨S2048, c⟩, ⟨S2048, d⟩] hc
    (ix1 (band 1 n)) 1 ?hk S2048 b ?hxk rfl 2048 ?hpre (ix1 n) ?hi ?ha
  case hk => show 1 < 4; omega
  case hxk => rfl
  case hpre => rfl
  case hi =>
    intro b' hb
    match b' with
    | ⟨0, _⟩ => exact absurd rfl hb
  case ha => show 2048 + n.val = 1 * 2048 + n.val; omega

theorem cat_bias2 (a b c d : SBias.Idx → EReal)
    (hc : Shape.Concatenates [S2048, S2048, S2048, S2048] S8192 0) (n : Fin 2048) :
    concatenate S8192 0 [⟨S2048, a⟩, ⟨S2048, b⟩, ⟨S2048, c⟩, ⟨S2048, d⟩] hc (ix1 (band 2 n)) = c (ix1 n) := by
  refine concatenate_apply_piece (t := S8192) 0 [⟨S2048, a⟩, ⟨S2048, b⟩, ⟨S2048, c⟩, ⟨S2048, d⟩] hc
    (ix1 (band 2 n)) 2 ?hk S2048 c ?hxk rfl 4096 ?hpre (ix1 n) ?hi ?ha
  case hk => show 2 < 4; omega
  case hxk => rfl
  case hpre => rfl
  case hi =>
    intro b' hb
    match b' with
    | ⟨0, _⟩ => exact absurd rfl hb
  case ha => show 4096 + n.val = 2 * 2048 + n.val; omega

theorem cat_bias3 (a b c d : SBias.Idx → EReal)
    (hc : Shape.Concatenates [S2048, S2048, S2048, S2048] S8192 0) (n : Fin 2048) :
    concatenate S8192 0 [⟨S2048, a⟩, ⟨S2048, b⟩, ⟨S2048, c⟩, ⟨S2048, d⟩] hc (ix1 (band 3 n)) = d (ix1 n) := by
  refine concatenate_apply_piece (t := S8192) 0 [⟨S2048, a⟩, ⟨S2048, b⟩, ⟨S2048, c⟩, ⟨S2048, d⟩] hc
    (ix1 (band 3 n)) 3 ?hk S2048 d ?hxk rfl 6144 ?hpre (ix1 n) ?hi ?ha
  case hk => show 3 < 4; omega
  case hxk => rfl
  case hpre => rfl
  case hi =>
    intro b' hb
    match b' with
    | ⟨0, _⟩ => exact absurd rfl hb
  case ha => show 6144 + n.val = 3 * 2048 + n.val; omega

/-- Four vectors end to end, read at entry `g*2048 + n`: the g-th vector at `n`. -/
theorem cat_bias (a b c d : SBias.Idx → EReal)
    (hc : Shape.Concatenates [S2048, S2048, S2048, S2048] S8192 0) (g : Fin 4) (n : Fin 2048) :
    concatenate S8192 0 [⟨S2048, a⟩, ⟨S2048, b⟩, ⟨S2048, c⟩, ⟨S2048, d⟩] hc (ix1 (band g n)) = pick g a b c d (ix1 n) := by
  match g with
  | ⟨0, _⟩ => exact cat_bias0 a b c d hc n
  | ⟨1, _⟩ => exact cat_bias1 a b c d hc n
  | ⟨2, _⟩ => exact cat_bias2 a b c d hc n
  | ⟨3, _⟩ => exact cat_bias3 a b c d hc n

/-! ## Where the reference's layout steps read, at row `r` and column `n` -/

theorem lidx3 (r c : Fin 8192) (k : Fin 2048) : lidx_main_v3 (ix2 r c) k = ix2 r k :=
  funext fun a => by match a with | ⟨0, _⟩ => rfl | ⟨1, _⟩ => rfl
theorem ridx3 (r c : Fin 8192) (k : Fin 2048) : ridx_main_v3 (ix2 r c) k = ix2 k c :=
  funext fun a => by match a with | ⟨0, _⟩ => rfl | ⟨1, _⟩ => rfl
theorem lidx4 (r c : Fin 8192) (k : Fin 2048) : lidx_main_v4 (ix2 r c) k = ix2 r k :=
  funext fun a => by match a with | ⟨0, _⟩ => rfl | ⟨1, _⟩ => rfl
theorem ridx4 (r c : Fin 8192) (k : Fin 2048) : ridx_main_v4 (ix2 r c) k = ix2 k c :=
  funext fun a => by match a with | ⟨0, _⟩ => rfl | ⟨1, _⟩ => rfl
/-- The bias, broadcast as a row and then down the rows, is read at the column. -/
theorem idx67 (r c : Fin 8192) : idx_main_v6 (idx_main_v7 (ix2 r c)) = ix1 c :=
  funext fun a => by match a with | ⟨0, _⟩ => rfl
/-- Band 0 of the wide result: columns 0 .. 2047. -/
theorem idx9 (r : Fin 8192) (n : Fin 2048) : idx_main_v9 (ix2 r n) = ix2 r (band 0 n) :=
  funext fun a => by
    match a with
    | ⟨0, _⟩ => rfl
    | ⟨1, _⟩ => exact Fin.ext (by show n.val = 0 * 2048 + n.val; omega)
/-- Band 1: columns 2048 .. 4095. -/
theorem idx10 (r : Fin 8192) (n : Fin 2048) : idx_main_v10 (ix2 r n) = ix2 r (band 1 n) :=
  funext fun a => by
    match a with
    | ⟨0, _⟩ => rfl
    | ⟨1, _⟩ => exact Fin.ext (by show 2048 + n.val = 1 * 2048 + n.val; omega)
/-- Band 2: columns 4096 .. 6143. -/
theorem idx11 (r : Fin 8192) (n : Fin 2048) : idx_main_v11 (ix2 r n) = ix2 r (band 2 n) :=
  funext fun a => by
    match a with
    | ⟨0, _⟩ => rfl
    | ⟨1, _⟩ => exact Fin.ext (by show 4096 + n.val = 2 * 2048 + n.val; omega)
/-- Band 3: columns 6144 .. 8191. -/
theorem idx12 (r : Fin 8192) (n : Fin 2048) : idx_main_v12 (ix2 r n) = ix2 r (band 3 n) :=
  funext fun a => by
    match a with
    | ⟨0, _⟩ => rfl
    | ⟨1, _⟩ => exact Fin.ext (by show 6144 + n.val = 3 * 2048 + n.val; omega)

/-! ## The wide pre-activation, band by band -/

/-- The [8192, 8192] pre-activation at row `r`, column `g*2048 + n`, is gate `g`'s pre-activation at `(r, n)`: each
    product's wide right operand read at column `g*2048 + n` is the g-th weight matrix at column `n`, for every `k`. -/
theorem wide_at (x0 x1 : SAct.Idx → EReal) (x3 x4 x5 x6 x7 x8 x9 x10 : SWt.Idx → EReal) (x11 x12 x13 x14 : SBias.Idx → EReal) (g : Fin 4) (r : Fin 8192) (n : Fin 2048) :
    val_main_v8 (F := Ideal) x0 x1 x3 x4 x5 x6 x7 x8 x9 x10 x11 x12 x13 x14 (ix2 r (band g n))
      = gate x0 x1 (pick g x3 x4 x5 x6) (pick g x7 x8 x9 x10) (pick g x11 x12 x13 x14) r n := by
  rw [val_main_v8_apply, val_main_v5_apply, val_main_v3_apply, val_main_v4_apply, val_main_v7_apply, val_main_v6_apply, idx67]
  unfold gate val_main_v0 val_main_v1 val_main_v2
  simp only [lidx3, ridx3, lidx4, ridx4, cat_cols, cat_bias]
  rfl

/-- The reference's sigmoid, spelled `1 / (1 + exp (-v))` with the float word of 1.0, is `Ideal.logistic v`: the word
    is the extended real 1, and the quotient is the definition. -/
theorem sigmoid_spelled (v : EReal) :
    FloatOps.hostDivf (F := Ideal) (φ := .f32) (FloatOps.ofBits .f32 0x3F800000#32)
        (FloatOps.addf (FloatOps.ofBits .f32 0x3F800000#32) (FloatOps.hostUnary .exp (FloatOps.hostNegf v)))
      = Ideal.logistic v := by
  rw [Ideal.ofBits_def, Ideal.ofBits_one_f32]; rfl

/-- The input gate. -/
theorem sig_i (x0 x1 : SAct.Idx → EReal) (x3 x4 x5 x6 x7 x8 x9 x10 : SWt.Idx → EReal) (x11 x12 x13 x14 : SBias.Idx → EReal) (r : Fin 8192) (n : Fin 2048) :
    val_main_v18 (F := Ideal) x0 x1 x3 x4 x5 x6 x7 x8 x9 x10 x11 x12 x13 x14 (ix2 r n) = Ideal.logistic (gate x0 x1 x3 x7 x11 r n) := by
  rw [val_main_v18_apply, val_main_v17_apply, val_main_cst_0_apply, val_main_v16_apply, val_main_v15_apply,
    val_main_cst_apply, val_main_v14_apply, val_main_v13_apply, val_main_v9_apply, idx9, wide_at, sigmoid_spelled]
  rfl

/-- The forget gate. -/
theorem sig_f (x0 x1 : SAct.Idx → EReal) (x3 x4 x5 x6 x7 x8 x9 x10 : SWt.Idx → EReal) (x11 x12 x13 x14 : SBias.Idx → EReal) (r : Fin 8192) (n : Fin 2048) :
    val_main_v24 (F := Ideal) x0 x1 x3 x4 x5 x6 x7 x8 x9 x10 x11 x12 x13 x14 (ix2 r n) = Ideal.logistic (gate x0 x1 x4 x8 x12 r n) := by
  rw [val_main_v24_apply, val_main_v23_apply, val_main_cst_2_apply, val_main_v22_apply, val_main_v21_apply,
    val_main_cst_1_apply, val_main_v20_apply, val_main_v19_apply, val_main_v10_apply, idx10, wide_at, sigmoid_spelled]
  rfl

/-- The candidate. -/
theorem tanh_g (x0 x1 : SAct.Idx → EReal) (x3 x4 x5 x6 x7 x8 x9 x10 : SWt.Idx → EReal) (x11 x12 x13 x14 : SBias.Idx → EReal) (r : Fin 8192) (n : Fin 2048) :
    val_main_v25 (F := Ideal) x0 x1 x3 x4 x5 x6 x7 x8 x9 x10 x11 x12 x13 x14 (ix2 r n) = Ideal.tanh (gate x0 x1 x5 x9 x13 r n) := by
  rw [val_main_v25_apply, val_main_v11_apply, idx11, wide_at]
  rfl

/-- The output gate. -/
theorem sig_o (x0 x1 : SAct.Idx → EReal) (x3 x4 x5 x6 x7 x8 x9 x10 : SWt.Idx → EReal) (x11 x12 x13 x14 : SBias.Idx → EReal) (r : Fin 8192) (n : Fin 2048) :
    val_main_v31 (F := Ideal) x0 x1 x3 x4 x5 x6 x7 x8 x9 x10 x11 x12 x13 x14 (ix2 r n) = Ideal.logistic (gate x0 x1 x6 x10 x14 r n) := by
  rw [val_main_v31_apply, val_main_v30_apply, val_main_cst_4_apply, val_main_v29_apply, val_main_v28_apply,
    val_main_cst_3_apply, val_main_v27_apply, val_main_v26_apply, val_main_v12_apply, idx12, wide_at, sigmoid_spelled]
  rfl

/-! ## The two results -/

/-- The reference's first result is the specification's cell state. -/
theorem cell_ref (x0 x1 x2 : SAct.Idx → EReal) (x3 x4 x5 x6 x7 x8 x9 x10 : SWt.Idx → EReal) (x11 x12 x13 x14 : SBias.Idx → EReal) :
    val_main_v34 (F := Ideal) x0 x1 x2 x3 x4 x5 x6 x7 x8 x9 x10 x11 x12 x13 x14 = cellArr ⟨x0, x1, x2, x3, x4, x5, x6, x7, x8, x9, x10, x11, x12, x13, x14⟩ := by
  funext i
  obtain ⟨r, n, rfl⟩ : ∃ (r : Fin 8192) (n : Fin 2048), i = ix2 r n := ⟨i 0, i 1, eq_ix2 i⟩
  rw [val_main_v34_apply, val_main_v32_apply, val_main_v33_apply, sig_f, sig_i, tanh_g]
  rfl

/-- The reference's second result is the specification's hidden state. -/
theorem hid_ref (x0 x1 x2 : SAct.Idx → EReal) (x3 x4 x5 x6 x7 x8 x9 x10 : SWt.Idx → EReal) (x11 x12 x13 x14 : SBias.Idx → EReal) :
    val_main_v36 (F := Ideal) x0 x1 x2 x3 x4 x5 x6 x7 x8 x9 x10 x11 x12 x13 x14 = hidArr ⟨x0, x1, x2, x3, x4, x5, x6, x7, x8, x9, x10, x11, x12, x13, x14⟩ := by
  funext i
  obtain ⟨r, n, rfl⟩ : ∃ (r : Fin 8192) (n : Fin 2048), i = ix2 r n := ⟨i 0, i 1, eq_ix2 i⟩
  rw [val_main_v36_apply, val_main_v35_apply, sig_o, cell_ref]
  rfl

end Cert.Lstm.Ref

end
-- ==== Proof.LstmBody.lean ====
/-
  The kernel body's arithmetic, read at an index of the 256 x 256 output tile.

  The body works on tiles: X, H (256 rows of x and h), one 2048 x 256 column tile per weight matrix, one 1 x 256 row per
  bias, and the 256 x 256 tile C of the old cell state. Each of its eight products is a matrix product into a zero
  accumulator, which on the extended reals is the plain sum over the contracted index k of X[p,k] * W[k,q]; the change of
  float format before it is the identity; the bias row is broadcast down the 256 rows, so it contributes b[0,q]. Hence at
  tile index (p, q) the two stored values are the LSTM formulas over the tiles (`Cert.Lstm.gateBlk`).
-/
import proofs.«137950_j20074677141565_2_alg».proof.Proof.Gen.KernelIdeal.Skeleton
import proofs.«137950_j20074677141565_2_alg».proof.Proof.LstmSpec
import Idealize.ShloMosaic.PureOps.Ideal.Laws
import Idealize.ShloMosaic.Lib.ValueIdx
import Idealize.ShloMosaic.Lib.Pipeline.Value

noncomputable section

namespace Cert.Lstm.Body

open Cert.KernelIdeal Cert.KernelIdeal.Gen Cert.Lstm Idealize.ShloMosaic Idealize.ShloMosaic.ValueIdx
open scoped BigOperators

/-- The body's matrix product: [256, 2048] times [2048, 256], contracting the 2048. -/
abbrev D := dot_S256x2048_S2048x256_S256x256_1_0_0_1_n_n

/-- The left operand's row is the output's row. -/
theorem lhs_row (i : S256x256.Idx) (k : D.contr.Idx) : (D.lhsIdx i k 0).val = (i 0).val := by
  unfold DotDims.lhsIdx
  rw [dif_neg (show ¬(0 : Fin S256x2048.rank) ∈ D.lhsBatch by decide), dif_pos (show (0 : Fin S256x2048.rank) ∈ D.lhsNonContracting by decide)]
  rfl

/-- The left operand's column is the contracted index. -/
theorem lhs_col (i : S256x256.Idx) (k : D.contr.Idx) : (D.lhsIdx i k 1).val = (k ⟨0, by decide⟩).val :=
  D.lhsIdx_val_of_single rfl i k

/-- The right operand's row is the contracted index. -/
theorem rhs_row (i : S256x256.Idx) (k : D.contr.Idx) : (D.rhsIdx i k 0).val = (k ⟨0, by decide⟩).val :=
  D.rhsIdx_val_of_single rfl i k

/-- The right operand's column is the output's column. -/
theorem rhs_col (i : S256x256.Idx) (k : D.contr.Idx) : (D.rhsIdx i k 1).val = (i 1).val := by
  unfold DotDims.rhsIdx
  rw [dif_neg (show ¬(1 : Fin S2048x256.rank) ∈ D.rhsBatch by decide), dif_pos (show (1 : Fin S2048x256.rank) ∈ D.rhsNonContracting by decide)]
  rfl

/-- A matrix product into the zero accumulator, at tile index (p, q): the sum over k of X[p,k] * W[k,q]. -/
theorem matmul_at (X : FVec Ideal S256x2048 .bf16) (W : FVec Ideal S2048x256 .bf16) (p q : Fin 256) :
    matmul D none X W (constant (F := Ideal) S256x256 .f32 0x00000000#32) (ix2 p q)
      = ∑ k : Fin 2048, X (ix2 p k) * W (ix2 k q) := by
  refine (Ideal.matmul_constant_zero_apply D none X W (ix2 p q)).trans ?_
  rw [← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 2048 rfl rfl).symm k) = ix2 k q := funext fun a => Fin.ext (by
    match a with
    | ⟨0, _⟩ => exact (rhs_row _ _).trans hk
    | ⟨1, _⟩ => exact rhs_col _ _)
  rw [el, er]

/-- A bias row broadcast down the tile, at (p, q): the row's entry q. -/
theorem bias_at (b : Vec Ideal S1x256 .f32) (p q : Fin 256) :
    broadcastTo S256x256 (shapeCast S1x256 b shapeCasts_S1x256_S1x256) broadcasts_S1x256_S256x256 (ix2 p q) = b (ix2 0 q) := by
  rw [shapeCast_self]
  refine broadcastTo_apply b broadcasts_S1x256_S256x256 (ix2 p q) (ix2 0 q) (fun a => ?_)
  match a with
  | ⟨0, _⟩ => show 0 = (if (1 : Nat) = 1 then 0 else p.val); rw [if_pos rfl]
  | ⟨1, _⟩ => show q.val = (if (256 : Nat) = 1 then 0 else q.val); rw [if_neg (by decide)]

/-- One product of the body, with its operands as the body forms them (the activation tile changed of format, the
    weight tile recast to its own shape): the sum over k. -/
theorem prod_at (X : Vec Ideal S256x2048 .f32) (W : Vec Ideal S2048x256 .bf16) (p q : Fin 256) :
    matmul D none (truncf (F := Ideal) .bf16 X bitsLt_bf16_f32)
        (shapeCast S2048x256 W shapeCasts_S2048x256_S2048x256 : FVec Ideal S2048x256 .bf16)
        (constant (F := Ideal) S256x256 .f32 0x00000000#32) (ix2 p q)
      = ∑ k : Fin 2048, X (ix2 p k) * W (ix2 k q) := by
  rw [shapeCast_self]
  exact matmul_at _ W p q

/-- The input gate's pre-activation payload at (p, q). -/
theorem pay5_at (X H : Vec Ideal S256x2048 .f32) (Wx Wh : Vec Ideal S2048x256 .bf16) (b : Vec Ideal S1x256 .f32) (p q : Fin 256) :
    k0_pay5 X H Wx Wh b (ix2 p q) = gateBlk X H Wx Wh b p q := by
  unfold k0_pay5 k0_pay3 k0_pay4 gateBlk
  show (matmul D none _ _ _ (ix2 p q) + matmul D none _ _ _ (ix2 p q)) + broadcastTo S256x256 _ _ (ix2 p q) = _
  rw [prod_at, prod_at, bias_at]

/-- The forget gate's pre-activation payload at (p, q). -/
theorem pay6_at (X H : Vec Ideal S256x2048 .f32) (Wx Wh : Vec Ideal S2048x256 .bf16) (b : Vec Ideal S1x256 .f32) (p q : Fin 256) :
    k0_pay6 X H Wx Wh b (ix2 p q) = gateBlk X H Wx Wh b p q := by
  unfold k0_pay6 k0_pay3 k0_pay4 gateBlk
  show (matmul D none _ _ _ (ix2 p q) + matmul D none _ _ _ (ix2 p q)) + broadcastTo S256x256 _ _ (ix2 p q) = _
  rw [prod_at, prod_at, bias_at]

/-- The candidate's product with x, at (p, q). -/
theorem pay7_at (X : Vec Ideal S256x2048 .f32) (W : Vec Ideal S2048x256 .bf16) (p q : Fin 256) :
    k0_pay7 X W (ix2 p q) = ∑ k : Fin 2048, X (ix2 p k) * W (ix2 k q) := by
  unfold k0_pay7 k0_pay3
  exact prod_at X W p q

/-- The candidate's product with h, at (p, q). -/
theorem pay8_at (H : Vec Ideal S256x2048 .f32) (W : Vec Ideal S2048x256 .bf16) (p q : Fin 256) :
    k0_pay8 H W (ix2 p q) = ∑ k : Fin 2048, H (ix2 p k) * W (ix2 k q) := by
  unfold k0_pay8 k0_pay4
  exact prod_at H W p q

/-- The stored cell-state tile at (p, q): forget gate times the old state plus input gate times the candidate, over the
    tiles. -/
theorem cell_at (X H : Vec Ideal S256x2048 .f32) (Wxi Whi Wxf Whf Wxg Whg : Vec Ideal S2048x256 .bf16)
    (bi bf bg : Vec Ideal S1x256 .f32) (C : Vec Ideal S256x256 .f32) (p q : Fin 256) :
    k0_pay1 (k0_pay5 X H Wxi Whi bi) (k0_pay6 X H Wxf Whf bf) (k0_pay7 X Wxg) (k0_pay8 H Whg) bg C (ix2 p q)
      = cellBlk X H Wxi Whi Wxf Whf Wxg Whg bi bf bg C p q := by
  unfold k0_pay1 cellBlk
  show Ideal.logistic (k0_pay6 X H Wxf Whf bf (ix2 p q)) * C (ix2 p q)
      + Ideal.logistic (k0_pay5 X H Wxi Whi bi (ix2 p q))
        * Ideal.tanh ((k0_pay7 X Wxg (ix2 p q) + k0_pay8 H Whg (ix2 p q)) + broadcastTo S256x256 _ _ (ix2 p q)) = _
  rw [pay5_at, pay6_at, pay7_at, pay8_at, bias_at]
  rfl

/-- The stored hidden-state tile at (p, q): the output gate times `tanh` of the stored cell state. -/
theorem hid_at (X H : Vec Ideal S256x2048 .f32) (Wxi Whi Wxf Whf Wxg Whg Wxo Who : Vec Ideal S2048x256 .bf16)
    (bi bf bg bo : Vec Ideal S1x256 .f32) (C : Vec Ideal S256x256 .f32) (p q : Fin 256) :
    k0_pay2 (k0_pay3 X) (k0_pay4 H) (k0_pay5 X H Wxi Whi bi) (k0_pay6 X H Wxf Whf bf) (k0_pay7 X Wxg) (k0_pay8 H Whg) bg
        Wxo Who bo C (ix2 p q)
      = hidBlk X H Wxi Whi Wxf Whf Wxg Whg Wxo Who bi bf bg bo C p q := by
  unfold k0_pay2 hidBlk
  show Ideal.logistic ((matmul D none (k0_pay3 X) _ _ (ix2 p q) + matmul D none (k0_pay4 H) _ _ (ix2 p q))
        + broadcastTo S256x256 _ _ (ix2 p q))
      * Ideal.tanh (k0_pay1 (k0_pay5 X H Wxi Whi bi) (k0_pay6 X H Wxf Whf bf) (k0_pay7 X Wxg) (k0_pay8 H Whg) bg C (ix2 p q)) = _
  unfold k0_pay3 k0_pay4
  rw [prod_at, prod_at, bias_at, cell_at]
  rfl

end Cert.Lstm.Body

end
-- ==== Proof.LstmBlocks.lean ====
/-
  From tiles to arrays: what the launch leaves in the two result arrays.

  The grid has 8 x 32 points. Point t works on row tile I = I(t) < 32 and column tile J = J(t) < 8: it is handed rows
  I*256 .. of x and h (all 2048 columns), columns J*256 .. of each of the eight weight matrices (all 2048 rows) and of
  each bias row, and tile (I, J) of the old cell state; it writes back tile (I, J) of each result. The weights reach the
  launch through a change of float format, which is the identity on the extended reals, and each bias through a reshape
  of a vector of 2048 into one row, which reads entry n at (0, n).

  So what point t writes back is tile (I, J) of the specification's arrays (the body's arithmetic at a tile index is the
  formula over the tiles, and the tiles are the arrays' restrictions). Every (I, J) is some point's, so the 256 tiles
  cover each result array, and the arrays end holding the specification's cell and hidden states.
-/
import proofs.«137950_j20074677141565_2_alg».proof.Proof.Gen.KernelIdeal.Value
import proofs.«137950_j20074677141565_2_alg».proof.Proof.LstmBody
import Idealize.ShloMosaic.Lib.StableHlo.Run
import Idealize.ShloMosaic.Lib.Pipeline.Value
import Idealize.ShloMosaic.Lib.ValueIdx

noncomputable section

namespace Cert.Lstm.Blocks

open Cert.KernelIdeal Cert.KernelIdeal.Gen Cert.Lstm Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The LSTM's fifteen arguments as core `c`'s memory holds them at launch. -/
def args (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5), m ((c : Thread nD τ).loc main_arg6),
   m ((c : Thread nD τ).loc main_arg7), m ((c : Thread nD τ).loc main_arg8), m ((c : Thread nD τ).loc main_arg9), m ((c : Thread nD τ).loc main_arg10),
   m ((c : Thread nD τ).loc main_arg11), m ((c : Thread nD τ).loc main_arg12), m ((c : Thread nD τ).loc main_arg13), m ((c : Thread nD τ).loc main_arg14)⟩

/-! ## Which tiles a grid point is handed -/

/-- The result windows' tile indices stay in range: row tile below 32, column tile below 8. -/
theorem idx_bound : ∀ t : Fin cfg0.N, win0_15.index t (0 : Fin 2) ≤ 31 ∧ win0_15.index t (1 : Fin 2) ≤ 7 :=
  (by decide +kernel : ∀ t : Fin grid0.N, _)

/-- The activation windows move with the result's row tile and take every column. -/
theorem idx_rows : ∀ t : Fin cfg0.N,
    win0_0.index t (0 : Fin 2) = win0_15.index t (0 : Fin 2) ∧ win0_0.index t (1 : Fin 2) = 0
    ∧ win0_1.index t (0 : Fin 2) = win0_15.index t (0 : Fin 2) ∧ win0_1.index t (1 : Fin 2) = 0 :=
  (by decide +kernel : ∀ t : Fin grid0.N, _)

/-- The weight windows take every row and move with the result's column tile. -/
theorem idx_cols : ∀ t : Fin cfg0.N,
    win0_2.index t (0 : Fin 2) = 0 ∧ win0_2.index t (1 : Fin 2) = win0_15.index t (1 : Fin 2)
    ∧ win0_3.index t (0 : Fin 2) = 0 ∧ win0_3.index t (1 : Fin 2) = win0_15.index t (1 : Fin 2)
    ∧ win0_4.index t (0 : Fin 2) = 0 ∧ win0_4.index t (1 : Fin 2) = win0_15.index t (1 : Fin 2)
    ∧ win0_5.index t (0 : Fin 2) = 0 ∧ win0_5.index t (1 : Fin 2) = win0_15.index t (1 : Fin 2)
    ∧ win0_6.index t (0 : Fin 2) = 0 ∧ win0_6.index t (1 : Fin 2) = win0_15.index t (1 : Fin 2)
    ∧ win0_7.index t (0 : Fin 2) = 0 ∧ win0_7.index t (1 : Fin 2) = win0_15.index t (1 : Fin 2)
    ∧ win0_8.index t (0 : Fin 2) = 0 ∧ win0_8.index t (1 : Fin 2) = win0_15.index t (1 : Fin 2)
    ∧ win0_9.index t (0 : Fin 2) = 0 ∧ win0_9.index t (1 : Fin 2) = win0_15.index t (1 : Fin 2) :=
  (by decide +kernel : ∀ t : Fin grid0.N, _)

/-- The bias windows take the one row and move with the result's column tile. -/
theorem idx_bias : ∀ t : Fin cfg0.N,
    win0_10.index t (0 : Fin 2) = 0 ∧ win0_10.index t (1 : Fin 2) = win0_15.index t (1 : Fin 2)
    ∧ win0_11.index t (0 : Fin 2) = 0 ∧ win0_11.index t (1 : Fin 2) = win0_15.index t (1 : Fin 2)
    ∧ win0_12.index t (0 : Fin 2) = 0 ∧ win0_12.index t (1 : Fin 2) = win0_15.index t (1 : Fin 2)
    ∧ win0_13.index t (0 : Fin 2) = 0 ∧ win0_13.index t (1 : Fin 2) = win0_15.index t (1 : Fin 2) :=
  (by decide +kernel : ∀ t : Fin grid0.N, _)

/-- The old cell state's window and the second result's window sit on the first result's tile. -/
theorem idx_tile : ∀ t : Fin cfg0.N,
    win0_14.index t (0 : Fin 2) = win0_15.index t (0 : Fin 2) ∧ win0_14.index t (1 : Fin 2) = win0_15.index t (1 : Fin 2)
    ∧ win0_16.index t (0 : Fin 2) = win0_15.index t (0 : Fin 2) ∧ win0_16.index t (1 : Fin 2) = win0_15.index t (1 : Fin 2) :=
  (by decide +kernel : ∀ t : Fin grid0.N, _)

/-- Every tile position is some grid point's. -/
theorem idx_onto : ∀ (I : Fin 32) (J : Fin 8), ∃ t : Fin cfg0.N,
    win0_15.index t (0 : Fin 2) = I.val ∧ win0_15.index t (1 : Fin 2) = J.val :=
  (by decide +kernel : ∀ (I : Fin 32) (J : Fin 8), ∃ t : Fin grid0.N, win0_15.index t (0 : Fin 2) = I.val ∧ win0_15.index t (1 : Fin 2) = J.val)

/-- Point `t`'s row tile. -/
def Ipt (t : Fin cfg0.N) : Fin 32 := ⟨win0_15.index t (0 : Fin 2), Nat.lt_succ_of_le (idx_bound t).1⟩
/-- Point `t`'s column tile. -/
def Jpt (t : Fin cfg0.N) : Fin 8 := ⟨win0_15.index t (1 : Fin 2), Nat.lt_succ_of_le (idx_bound t).2⟩

/-! ## What the region finds in the converted weights and the reshaped biases -/

/-- The converted copy of argument 3 is the argument: a change of float format is the identity here. -/
theorem V_main_v0 (c : Dev nD) : (V m c main_v0 : S2048x2048.Idx → EReal) = m ((c : Thread nD τ).loc main_arg3) := by
  dsimp only [Gen.V, Gen.hostOps0]; after_results; rfl

/-- The converted copy of argument 4 is the argument: a change of float format is the identity here. -/
theorem V_main_v1 (c : Dev nD) : (V m c main_v1 : S2048x2048.Idx → EReal) = m ((c : Thread nD τ).loc main_arg4) := by
  dsimp only [Gen.V, Gen.hostOps0]; after_results; rfl

/-- The converted copy of argument 5 is the argument: a change of float format is the identity here. -/
theorem V_main_v2 (c : Dev nD) : (V m c main_v2 : S2048x2048.Idx → EReal) = m ((c : Thread nD τ).loc main_arg5) := by
  dsimp only [Gen.V, Gen.hostOps0]; after_results; rfl

/-- The converted copy of argument 6 is the argument: a change of float format is the identity here. -/
theorem V_main_v3 (c : Dev nD) : (V m c main_v3 : S2048x2048.Idx → EReal) = m ((c : Thread nD τ).loc main_arg6) := by
  dsimp only [Gen.V, Gen.hostOps0]; after_results; rfl

/-- The converted copy of argument 7 is the argument: a change of float format is the identity here. -/
theorem V_main_v4 (c : Dev nD) : (V m c main_v4 : S2048x2048.Idx → EReal) = m ((c : Thread nD τ).loc main_arg7) := by
  dsimp only [Gen.V, Gen.hostOps0]; after_results; rfl

/-- The converted copy of argument 8 is the argument: a change of float format is the identity here. -/
theorem V_main_v5 (c : Dev nD) : (V m c main_v5 : S2048x2048.Idx → EReal) = m ((c : Thread nD τ).loc main_arg8) := by
  dsimp only [Gen.V, Gen.hostOps0]; after_results; rfl

/-- The converted copy of argument 9 is the argument: a change of float format is the identity here. -/
theorem V_main_v6 (c : Dev nD) : (V m c main_v6 : S2048x2048.Idx → EReal) = m ((c : Thread nD τ).loc main_arg9) := by
  dsimp only [Gen.V, Gen.hostOps0]; after_results; rfl

/-- The converted copy of argument 10 is the argument: a change of float format is the identity here. -/
theorem V_main_v7 (c : Dev nD) : (V m c main_v7 : S2048x2048.Idx → EReal) = m ((c : Thread nD τ).loc main_arg10) := by
  dsimp only [Gen.V, Gen.hostOps0]; after_results; rfl

/-- Argument 11 reshaped to one row reads its entry `n` at `(0, n)`. -/
theorem V_main_v8 (c : Dev nD) (n : Fin 2048) : (V m c main_v8 : S1x2048.Idx → EReal) (ix2 0 n) = m ((c : Thread nD τ).loc main_arg11) (ix1 n) := by
  dsimp only [Gen.V, Gen.hostOps0]; after_results
  show shapeCast S1x2048 (m ((c : Thread nD τ).loc main_arg11)) shapeCasts_S2048_S1x2048 (ix2 0 n) = _
  refine shapeCast_apply _ _ (ix2 0 n) (ix1 n) ?_
  rw [Shape.rowMajor_val_one, Shape.rowMajor_val_two]
  show n.val = 0 * 2048 + n.val
  omega

/-- Argument 12 reshaped to one row reads its entry `n` at `(0, n)`. -/
theorem V_main_v9 (c : Dev nD) (n : Fin 2048) : (V m c main_v9 : S1x2048.Idx → EReal) (ix2 0 n) = m ((c : Thread nD τ).loc main_arg12) (ix1 n) := by
  dsimp only [Gen.V, Gen.hostOps0]; after_results
  show shapeCast S1x2048 (m ((c : Thread nD τ).loc main_arg12)) shapeCasts_S2048_S1x2048 (ix2 0 n) = _
  refine shapeCast_apply _ _ (ix2 0 n) (ix1 n) ?_
  rw [Shape.rowMajor_val_one, Shape.rowMajor_val_two]
  show n.val = 0 * 2048 + n.val
  omega

/-- Argument 13 reshaped to one row reads its entry `n` at `(0, n)`. -/
theorem V_main_v10 (c : Dev nD) (n : Fin 2048) : (V m c main_v10 : S1x2048.Idx → EReal) (ix2 0 n) = m ((c : Thread nD τ).loc main_arg13) (ix1 n) := by
  dsimp only [Gen.V, Gen.hostOps0]; after_results
  show shapeCast S1x2048 (m ((c : Thread nD τ).loc main_arg13)) shapeCasts_S2048_S1x2048 (ix2 0 n) = _
  refine shapeCast_apply _ _ (ix2 0 n) (ix1 n) ?_
  rw [Shape.rowMajor_val_one, Shape.rowMajor_val_two]
  show n.val = 0 * 2048 + n.val
  omega

/-- Argument 14 reshaped to one row reads its entry `n` at `(0, n)`. -/
theorem V_main_v11 (c : Dev nD) (n : Fin 2048) : (V m c main_v11 : S1x2048.Idx → EReal) (ix2 0 n) = m ((c : Thread nD τ).loc main_arg14) (ix1 n) := by
  dsimp only [Gen.V, Gen.hostOps0]; after_results
  show shapeCast S1x2048 (m ((c : Thread nD τ).loc main_arg14)) shapeCasts_S2048_S1x2048 (ix2 0 n) = _
  refine shapeCast_apply _ _ (ix2 0 n) (ix1 n) ?_
  rw [Shape.rowMajor_val_one, Shape.rowMajor_val_two]
  show n.val = 0 * 2048 + n.val
  omega

/-! ## The windows' blocks at a point are the arrays' tiles -/

/-- Window 0's block at point `t`: rows `I*256 ..` of argument 0. -/
theorem blk0 (c : Dev nD) (t : Fin cfg0.N) : (iblk m c 0 t : SRows.Idx → EReal) = rowsBlk (args m c).x (Ipt t) := by
  funext y
  show V m c main_arg0 (((cfg0.win 0).blk t).view.emb y) = m ((c : Thread nD τ).loc main_arg0) (ix2 (rowOf (Ipt t) (y 0)) (y 1))
  rw [V_main_arg0]
  refine congrArg _ (funext fun a => Fin.ext ?_)
  obtain ⟨e0, e1, e2, e3⟩ := idx_rows t
  match a with
  | ⟨0, _⟩ => show win0_0.index t (0 : Fin 2) * 256 + 1 * (y 0).val = win0_15.index t (0 : Fin 2) * 256 + (y 0).val; omega
  | ⟨1, _⟩ => show win0_0.index t (1 : Fin 2) * 2048 + 1 * (y 1).val = (y 1).val; omega

/-- Window 1's block at point `t`: rows `I*256 ..` of argument 1. -/
theorem blk1 (c : Dev nD) (t : Fin cfg0.N) : (iblk m c 1 t : SRows.Idx → EReal) = rowsBlk (args m c).h (Ipt t) := by
  funext y
  show V m c main_arg1 (((cfg0.win 1).blk t).view.emb y) = m ((c : Thread nD τ).loc main_arg1) (ix2 (rowOf (Ipt t) (y 0)) (y 1))
  rw [V_main_arg1]
  refine congrArg _ (funext fun a => Fin.ext ?_)
  obtain ⟨e0, e1, e2, e3⟩ := idx_rows t
  match a with
  | ⟨0, _⟩ => show win0_1.index t (0 : Fin 2) * 256 + 1 * (y 0).val = win0_15.index t (0 : Fin 2) * 256 + (y 0).val; omega
  | ⟨1, _⟩ => show win0_1.index t (1 : Fin 2) * 2048 + 1 * (y 1).val = (y 1).val; omega

/-- Window 2's block at point `t`: columns `J*256 ..` of argument 3. -/
theorem blk2 (c : Dev nD) (t : Fin cfg0.N) : (iblk m c 2 t : SCols.Idx → EReal) = colsBlk (args m c).Wii (Jpt t) := by
  funext y
  show (V m c main_v0 : S2048x2048.Idx → EReal) (((cfg0.win 2).blk t).view.emb y) = m ((c : Thread nD τ).loc main_arg3) (ix2 (y 0) (colOf (Jpt t) (y 1)))
  rw [V_main_v0]
  refine congrArg _ (funext fun a => Fin.ext ?_)
  obtain ⟨r2, c2, r3, c3, r4, c4, r5, c5, r6, c6, r7, c7, r8, c8, r9, c9⟩ := idx_cols t
  match a with
  | ⟨0, _⟩ => show win0_2.index t (0 : Fin 2) * 2048 + 1 * (y 0).val = (y 0).val; omega
  | ⟨1, _⟩ => show win0_2.index t (1 : Fin 2) * 256 + 1 * (y 1).val = win0_15.index t (1 : Fin 2) * 256 + (y 1).val; omega

/-- Window 3's block at point `t`: columns `J*256 ..` of argument 4. -/
theorem blk3 (c : Dev nD) (t : Fin cfg0.N) : (iblk m c 3 t : SCols.Idx → EReal) = colsBlk (args m c).Wif (Jpt t) := by
  funext y
  show (V m c main_v1 : S2048x2048.Idx → EReal) (((cfg0.win 3).blk t).view.emb y) = m ((c : Thread nD τ).loc main_arg4) (ix2 (y 0) (colOf (Jpt t) (y 1)))
  rw [V_main_v1]
  refine congrArg _ (funext fun a => Fin.ext ?_)
  obtain ⟨r2, c2, r3, c3, r4, c4, r5, c5, r6, c6, r7, c7, r8, c8, r9, c9⟩ := idx_cols t
  match a with
  | ⟨0, _⟩ => show win0_3.index t (0 : Fin 2) * 2048 + 1 * (y 0).val = (y 0).val; omega
  | ⟨1, _⟩ => show win0_3.index t (1 : Fin 2) * 256 + 1 * (y 1).val = win0_15.index t (1 : Fin 2) * 256 + (y 1).val; omega

/-- Window 4's block at point `t`: columns `J*256 ..` of argument 5. -/
theorem blk4 (c : Dev nD) (t : Fin cfg0.N) : (iblk m c 4 t : SCols.Idx → EReal) = colsBlk (args m c).Wig (Jpt t) := by
  funext y
  show (V m c main_v2 : S2048x2048.Idx → EReal) (((cfg0.win 4).blk t).view.emb y) = m ((c : Thread nD τ).loc main_arg5) (ix2 (y 0) (colOf (Jpt t) (y 1)))
  rw [V_main_v2]
  refine congrArg _ (funext fun a => Fin.ext ?_)
  obtain ⟨r2, c2, r3, c3, r4, c4, r5, c5, r6, c6, r7, c7, r8, c8, r9, c9⟩ := idx_cols t
  match a with
  | ⟨0, _⟩ => show win0_4.index t (0 : Fin 2) * 2048 + 1 * (y 0).val = (y 0).val; omega
  | ⟨1, _⟩ => show win0_4.index t (1 : Fin 2) * 256 + 1 * (y 1).val = win0_15.index t (1 : Fin 2) * 256 + (y 1).val; omega

/-- Window 5's block at point `t`: columns `J*256 ..` of argument 6. -/
theorem blk5 (c : Dev nD) (t : Fin cfg0.N) : (iblk m c 5 t : SCols.Idx → EReal) = colsBlk (args m c).Wio (Jpt t) := by
  funext y
  show (V m c main_v3 : S2048x2048.Idx → EReal) (((cfg0.win 5).blk t).view.emb y) = m ((c : Thread nD τ).loc main_arg6) (ix2 (y 0) (colOf (Jpt t) (y 1)))
  rw [V_main_v3]
  refine congrArg _ (funext fun a => Fin.ext ?_)
  obtain ⟨r2, c2, r3, c3, r4, c4, r5, c5, r6, c6, r7, c7, r8, c8, r9, c9⟩ := idx_cols t
  match a with
  | ⟨0, _⟩ => show win0_5.index t (0 : Fin 2) * 2048 + 1 * (y 0).val = (y 0).val; omega
  | ⟨1, _⟩ => show win0_5.index t (1 : Fin 2) * 256 + 1 * (y 1).val = win0_15.index t (1 : Fin 2) * 256 + (y 1).val; omega

/-- Window 6's block at point `t`: columns `J*256 ..` of argument 7. -/
theorem blk6 (c : Dev nD) (t : Fin cfg0.N) : (iblk m c 6 t : SCols.Idx → EReal) = colsBlk (args m c).Whi (Jpt t) := by
  funext y
  show (V m c main_v4 : S2048x2048.Idx → EReal) (((cfg0.win 6).blk t).view.emb y) = m ((c : Thread nD τ).loc main_arg7) (ix2 (y 0) (colOf (Jpt t) (y 1)))
  rw [V_main_v4]
  refine congrArg _ (funext fun a => Fin.ext ?_)
  obtain ⟨r2, c2, r3, c3, r4, c4, r5, c5, r6, c6, r7, c7, r8, c8, r9, c9⟩ := idx_cols t
  match a with
  | ⟨0, _⟩ => show win0_6.index t (0 : Fin 2) * 2048 + 1 * (y 0).val = (y 0).val; omega
  | ⟨1, _⟩ => show win0_6.index t (1 : Fin 2) * 256 + 1 * (y 1).val = win0_15.index t (1 : Fin 2) * 256 + (y 1).val; omega

/-- Window 7's block at point `t`: columns `J*256 ..` of argument 8. -/
theorem blk7 (c : Dev nD) (t : Fin cfg0.N) : (iblk m c 7 t : SCols.Idx → EReal) = colsBlk (args m c).Whf (Jpt t) := by
  funext y
  show (V m c main_v5 : S2048x2048.Idx → EReal) (((cfg0.win 7).blk t).view.emb y) = m ((c : Thread nD τ).loc main_arg8) (ix2 (y 0) (colOf (Jpt t) (y 1)))
  rw [V_main_v5]
  refine congrArg _ (funext fun a => Fin.ext ?_)
  obtain ⟨r2, c2, r3, c3, r4, c4, r5, c5, r6, c6, r7, c7, r8, c8, r9, c9⟩ := idx_cols t
  match a with
  | ⟨0, _⟩ => show win0_7.index t (0 : Fin 2) * 2048 + 1 * (y 0).val = (y 0).val; omega
  | ⟨1, _⟩ => show win0_7.index t (1 : Fin 2) * 256 + 1 * (y 1).val = win0_15.index t (1 : Fin 2) * 256 + (y 1).val; omega

/-- Window 8's block at point `t`: columns `J*256 ..` of argument 9. -/
theorem blk8 (c : Dev nD) (t : Fin cfg0.N) : (iblk m c 8 t : SCols.Idx → EReal) = colsBlk (args m c).Whg (Jpt t) := by
  funext y
  show (V m c main_v6 : S2048x2048.Idx → EReal) (((cfg0.win 8).blk t).view.emb y) = m ((c : Thread nD τ).loc main_arg9) (ix2 (y 0) (colOf (Jpt t) (y 1)))
  rw [V_main_v6]
  refine congrArg _ (funext fun a => Fin.ext ?_)
  obtain ⟨r2, c2, r3, c3, r4, c4, r5, c5, r6, c6, r7, c7, r8, c8, r9, c9⟩ := idx_cols t
  match a with
  | ⟨0, _⟩ => show win0_8.index t (0 : Fin 2) * 2048 + 1 * (y 0).val = (y 0).val; omega
  | ⟨1, _⟩ => show win0_8.index t (1 : Fin 2) * 256 + 1 * (y 1).val = win0_15.index t (1 : Fin 2) * 256 + (y 1).val; omega

/-- Window 9's block at point `t`: columns `J*256 ..` of argument 10. -/
theorem blk9 (c : Dev nD) (t : Fin cfg0.N) : (iblk m c 9 t : SCols.Idx → EReal) = colsBlk (args m c).Who (Jpt t) := by
  funext y
  show (V m c main_v7 : S2048x2048.Idx → EReal) (((cfg0.win 9).blk t).view.emb y) = m ((c : Thread nD τ).loc main_arg10) (ix2 (y 0) (colOf (Jpt t) (y 1)))
  rw [V_main_v7]
  refine congrArg _ (funext fun a => Fin.ext ?_)
  obtain ⟨r2, c2, r3, c3, r4, c4, r5, c5, r6, c6, r7, c7, r8, c8, r9, c9⟩ := idx_cols t
  match a with
  | ⟨0, _⟩ => show win0_9.index t (0 : Fin 2) * 2048 + 1 * (y 0).val = (y 0).val; omega
  | ⟨1, _⟩ => show win0_9.index t (1 : Fin 2) * 256 + 1 * (y 1).val = win0_15.index t (1 : Fin 2) * 256 + (y 1).val; omega

/-- Window 10's block at point `t`: entries `J*256 ..` of argument 11, as one row. -/
theorem blk10 (c : Dev nD) (t : Fin cfg0.N) : (iblk m c 10 t : SBRow.Idx → EReal) = biasBlk (args m c).bi (Jpt t) := by
  funext y
  show (V m c main_v8 : S1x2048.Idx → EReal) (((cfg0.win 10).blk t).view.emb y) = m ((c : Thread nD τ).loc main_arg11) (ix1 (colOf (Jpt t) (y 1)))
  have hy : ((cfg0.win 10).blk t).view.emb y = (ix2 0 (colOf (Jpt t) (y 1)) : S1x2048.Idx) := by
    refine funext fun a => Fin.ext ?_
    obtain ⟨r10, c10, r11, c11, r12, c12, r13, c13⟩ := idx_bias t
    have hy0 : (y 0).val < 1 := idx2_lt0 y
    match a with
    | ⟨0, _⟩ => show win0_10.index t (0 : Fin 2) * 1 + 1 * (y 0).val = 0; omega
    | ⟨1, _⟩ => show win0_10.index t (1 : Fin 2) * 256 + 1 * (y 1).val = win0_15.index t (1 : Fin 2) * 256 + (y 1).val; omega
  rw [hy, V_main_v8]

/-- Window 11's block at point `t`: entries `J*256 ..` of argument 12, as one row. -/
theorem blk11 (c : Dev nD) (t : Fin cfg0.N) : (iblk m c 11 t : SBRow.Idx → EReal) = biasBlk (args m c).bf (Jpt t) := by
  funext y
  show (V m c main_v9 : S1x2048.Idx → EReal) (((cfg0.win 11).blk t).view.emb y) = m ((c : Thread nD τ).loc main_arg12) (ix1 (colOf (Jpt t) (y 1)))
  have hy : ((cfg0.win 11).blk t).view.emb y = (ix2 0 (colOf (Jpt t) (y 1)) : S1x2048.Idx) := by
    refine funext fun a => Fin.ext ?_
    obtain ⟨r10, c10, r11, c11, r12, c12, r13, c13⟩ := idx_bias t
    have hy0 : (y 0).val < 1 := idx2_lt0 y
    match a with
    | ⟨0, _⟩ => show win0_11.index t (0 : Fin 2) * 1 + 1 * (y 0).val = 0; omega
    | ⟨1, _⟩ => show win0_11.index t (1 : Fin 2) * 256 + 1 * (y 1).val = win0_15.index t (1 : Fin 2) * 256 + (y 1).val; omega
  rw [hy, V_main_v9]

/-- Window 12's block at point `t`: entries `J*256 ..` of argument 13, as one row. -/
theorem blk12 (c : Dev nD) (t : Fin cfg0.N) : (iblk m c 12 t : SBRow.Idx → EReal) = biasBlk (args m c).bg (Jpt t) := by
  funext y
  show (V m c main_v10 : S1x2048.Idx → EReal) (((cfg0.win 12).blk t).view.emb y) = m ((c : Thread nD τ).loc main_arg13) (ix1 (colOf (Jpt t) (y 1)))
  have hy : ((cfg0.win 12).blk t).view.emb y = (ix2 0 (colOf (Jpt t) (y 1)) : S1x2048.Idx) := by
    refine funext fun a => Fin.ext ?_
    obtain ⟨r10, c10, r11, c11, r12, c12, r13, c13⟩ := idx_bias t
    have hy0 : (y 0).val < 1 := idx2_lt0 y
    match a with
    | ⟨0, _⟩ => show win0_12.index t (0 : Fin 2) * 1 + 1 * (y 0).val = 0; omega
    | ⟨1, _⟩ => show win0_12.index t (1 : Fin 2) * 256 + 1 * (y 1).val = win0_15.index t (1 : Fin 2) * 256 + (y 1).val; omega
  rw [hy, V_main_v10]

/-- Window 13's block at point `t`: entries `J*256 ..` of argument 14, as one row. -/
theorem blk13 (c : Dev nD) (t : Fin cfg0.N) : (iblk m c 13 t : SBRow.Idx → EReal) = biasBlk (args m c).bo (Jpt t) := by
  funext y
  show (V m c main_v11 : S1x2048.Idx → EReal) (((cfg0.win 13).blk t).view.emb y) = m ((c : Thread nD τ).loc main_arg14) (ix1 (colOf (Jpt t) (y 1)))
  have hy : ((cfg0.win 13).blk t).view.emb y = (ix2 0 (colOf (Jpt t) (y 1)) : S1x2048.Idx) := by
    refine funext fun a => Fin.ext ?_
    obtain ⟨r10, c10, r11, c11, r12, c12, r13, c13⟩ := idx_bias t
    have hy0 : (y 0).val < 1 := idx2_lt0 y
    match a with
    | ⟨0, _⟩ => show win0_13.index t (0 : Fin 2) * 1 + 1 * (y 0).val = 0; omega
    | ⟨1, _⟩ => show win0_13.index t (1 : Fin 2) * 256 + 1 * (y 1).val = win0_15.index t (1 : Fin 2) * 256 + (y 1).val; omega
  rw [hy, V_main_v11]

/-- Window 14's block at point `t`: tile `(I, J)` of argument 2. -/
theorem blk14 (c : Dev nD) (t : Fin cfg0.N) : (iblk m c 14 t : STile.Idx → EReal) = tileBlk (args m c).c (Ipt t) (Jpt t) := by
  funext y
  show V m c main_arg2 (((cfg0.win 14).blk t).view.emb y) = m ((c : Thread nD τ).loc main_arg2) (ix2 (rowOf (Ipt t) (y 0)) (colOf (Jpt t) (y 1)))
  rw [V_main_arg2]
  refine congrArg _ (funext fun a => Fin.ext ?_)
  obtain ⟨e0, e1, e2, e3⟩ := idx_tile t
  match a with
  | ⟨0, _⟩ => show win0_14.index t (0 : Fin 2) * 256 + 1 * (y 0).val = win0_15.index t (0 : Fin 2) * 256 + (y 0).val; omega
  | ⟨1, _⟩ => show win0_14.index t (1 : Fin 2) * 256 + 1 * (y 1).val = win0_15.index t (1 : Fin 2) * 256 + (y 1).val; omega

/-! ## What a point writes back -/

theorem hz : (![0, 0] : Fin 2 → Nat) = fun _ => 0 := funext fun a => by fin_cases a <;> rfl

/-- Row `I*256 + p`, column `J*256 + q` is where tile index `(p, q)` of point `t`'s result block sits in the array. -/
theorem emb15 (t : Fin cfg0.N) (p q : Fin 256) :
    ((cfg0.win 15).blk t).view.emb (ix2 p q : S256x256.Idx) = (ix2 (rowOf (Ipt t) p) (colOf (Jpt t) q) : S8192x2048.Idx) := by
  refine funext fun a => Fin.ext ?_
  match a with
  | ⟨0, _⟩ => show win0_15.index t (0 : Fin 2) * 256 + 1 * p.val = win0_15.index t (0 : Fin 2) * 256 + p.val; omega
  | ⟨1, _⟩ => show win0_15.index t (1 : Fin 2) * 256 + 1 * q.val = win0_15.index t (1 : Fin 2) * 256 + q.val; omega

/-- The same for the second result's window, which sits on the same tile. -/
theorem emb16 (t : Fin cfg0.N) (p q : Fin 256) :
    ((cfg0.win 16).blk t).view.emb (ix2 p q : S256x256.Idx) = (ix2 (rowOf (Ipt t) p) (colOf (Jpt t) q) : S8192x2048.Idx) := by
  refine funext fun a => Fin.ext ?_
  obtain ⟨e0, e1, e2, e3⟩ := idx_tile t
  match a with
  | ⟨0, _⟩ => show win0_16.index t (0 : Fin 2) * 256 + 1 * p.val = win0_15.index t (0 : Fin 2) * 256 + p.val; omega
  | ⟨1, _⟩ => show win0_16.index t (1 : Fin 2) * 256 + 1 * q.val = win0_15.index t (1 : Fin 2) * 256 + q.val; omega

/-- WHAT POINT `t` WRITES BACK to the first result is tile `(I, J)` of the specification's cell state. -/
theorem flushed15_eq (c : Dev nD) (t : Fin cfg0.N) :
    (dats m 0 c).flushed 15 t = ((cfg0.win 15).blk t).view.read (Elt Ideal) (cellArr (args m c)) := by
  rw [Cert.KernelIdeal.Value.flushed15]
  unfold out0_15
  rw [View.canon_unit_zero hz]
  simp only [View.ld_unit_zero (S := S256x2048) hz, View.ld_unit_zero (S := S2048x256) hz,
    View.ld_unit_zero (S := S1x256) hz, View.ld_unit_zero (S := S256x256) hz]
  refine funext fun (y : S256x256.Idx) => ?_
  obtain ⟨p, q, rfl⟩ : ∃ (p q : Fin 256), y = ix2 p q := ⟨y 0, y 1, eq_ix2 y⟩
  show k0_pay1 (k0_pay5 (iblk m c 0 t) (iblk m c 1 t) (iblk m c 2 t) (iblk m c 6 t) (iblk m c 10 t)) (k0_pay6 (iblk m c 0 t) (iblk m c 1 t) (iblk m c 3 t) (iblk m c 7 t) (iblk m c 11 t))
      (k0_pay7 (iblk m c 0 t) (iblk m c 4 t)) (k0_pay8 (iblk m c 1 t) (iblk m c 8 t)) (iblk m c 12 t) (iblk m c 14 t) (ix2 p q)
    = cellArr (args m c) (((cfg0.win 15).blk t).view.emb (ix2 p q : S256x256.Idx))
  rw [emb15, blk0, blk1, blk2, blk3, blk4, blk6, blk7, blk8, blk10, blk11, blk12, blk14, Body.cell_at, cellBlk_tiles]
  rfl

/-- WHAT POINT `t` WRITES BACK to the second result is tile `(I, J)` of the specification's hidden state. -/
theorem flushed16_eq (c : Dev nD) (t : Fin cfg0.N) :
    (dats m 0 c).flushed 16 t = ((cfg0.win 16).blk t).view.read (Elt Ideal) (hidArr (args m c)) := by
  rw [Cert.KernelIdeal.Value.flushed16]
  unfold out0_16
  rw [View.canon_unit_zero hz]
  simp only [View.ld_unit_zero (S := S256x2048) hz, View.ld_unit_zero (S := S2048x256) hz,
    View.ld_unit_zero (S := S1x256) hz, View.ld_unit_zero (S := S256x256) hz]
  refine funext fun (y : S256x256.Idx) => ?_
  obtain ⟨p, q, rfl⟩ : ∃ (p q : Fin 256), y = ix2 p q := ⟨y 0, y 1, eq_ix2 y⟩
  show k0_pay2 (k0_pay3 (iblk m c 0 t)) (k0_pay4 (iblk m c 1 t)) (k0_pay5 (iblk m c 0 t) (iblk m c 1 t) (iblk m c 2 t) (iblk m c 6 t) (iblk m c 10 t))
      (k0_pay6 (iblk m c 0 t) (iblk m c 1 t) (iblk m c 3 t) (iblk m c 7 t) (iblk m c 11 t)) (k0_pay7 (iblk m c 0 t) (iblk m c 4 t)) (k0_pay8 (iblk m c 1 t) (iblk m c 8 t)) (iblk m c 12 t)
      (iblk m c 5 t) (iblk m c 9 t) (iblk m c 13 t) (iblk m c 14 t) (ix2 p q)
    = hidArr (args m c) (((cfg0.win 16).blk t).view.emb (ix2 p q : S256x256.Idx))
  rw [emb16, blk0, blk1, blk2, blk3, blk4, blk5, blk6, blk7, blk8, blk9, blk10, blk11, blk12, blk13, blk14, Body.hid_at,
    hidBlk_tiles]
  rfl

/-! ## The tiles cover the arrays -/

/-- An index is in point `t`'s block of the first result iff each coordinate is in the tile's range. -/
theorem mem_blk15 (t : Fin cfg0.N) (i : S8192x2048.Idx) :
    i ∈ ((cfg0.win 15).blk t).view.set ↔ ∀ a : Fin 2, win0_15.index t a * S256x256.size a ≤ (i a).val
      ∧ (i a).val < win0_15.index t a * S256x256.size a + S256x256.size a := by
  show i ∈ ((View.whole main_v12_0).slice (win0_15.rect t)).set ↔ _
  rw [View.set_slice_whole, Rect.mem_set_unit]
  exact Iff.rfl

/-- The same for the second result. -/
theorem mem_blk16 (t : Fin cfg0.N) (i : S8192x2048.Idx) :
    i ∈ ((cfg0.win 16).blk t).view.set ↔ ∀ a : Fin 2, win0_16.index t a * S256x256.size a ≤ (i a).val
      ∧ (i a).val < win0_16.index t a * S256x256.size a + S256x256.size a := by
  show i ∈ ((View.whole main_v12_1).slice (win0_16.rect t)).set ↔ _
  rw [View.set_slice_whole, Rect.mem_set_unit]
  exact Iff.rfl

/-- Every index of the first result lies in the block of the point whose tile is (row / 256, column / 256). -/
theorem cover15 (i : S8192x2048.Idx) :
    ∃ t : Fin cfg0.N, (cfg0.win 15).flush t = true ∧ i ∈ ((cfg0.win 15).blk t).view.set := by
  have hi0 : (i 0).val < 8192 := idx2_lt0 i
  have hi1 : (i 1).val < 2048 := idx2_lt1 i
  obtain ⟨t, q0, q1⟩ := idx_onto ⟨(i 0).val / 256, by omega⟩ ⟨(i 1).val / 256, by omega⟩
  have q0' : win0_15.index t (0 : Fin 2) = (i 0).val / 256 := q0
  have q1' : win0_15.index t (1 : Fin 2) = (i 1).val / 256 := q1
  refine ⟨t, flush0_15 t, ?_⟩
  rw [mem_blk15]
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 256 ≤ (i 1).val ∧ (i 1).val < win0_15.index t (1 : Fin 2) * 256 + 256; omega

/-- Likewise the second result. -/
theorem cover16 (i : S8192x2048.Idx) :
    ∃ t : Fin cfg0.N, (cfg0.win 16).flush t = true ∧ i ∈ ((cfg0.win 16).blk t).view.set := by
  have hi0 : (i 0).val < 8192 := idx2_lt0 i
  have hi1 : (i 1).val < 2048 := idx2_lt1 i
  obtain ⟨t, q0, q1⟩ := idx_onto ⟨(i 0).val / 256, by omega⟩ ⟨(i 1).val / 256, by omega⟩
  have q0' : win0_15.index t (0 : Fin 2) = (i 0).val / 256 := q0
  have q1' : win0_15.index t (1 : Fin 2) = (i 1).val / 256 := q1
  obtain ⟨e0, e1, e2, e3⟩ := idx_tile t
  refine ⟨t, flush0_16 t, ?_⟩
  rw [mem_blk16]
  intro a
  match a with
  | ⟨0, _⟩ => show win0_16.index t (0 : Fin 2) * 256 ≤ (i 0).val ∧ (i 0).val < win0_16.index t (0 : Fin 2) * 256 + 256; omega
  | ⟨1, _⟩ => show win0_16.index t (1 : Fin 2) * 256 ≤ (i 1).val ∧ (i 1).val < win0_16.index t (1 : Fin 2) * 256 + 256; omega

/-! ## The arrays after the run -/

/-- The first result array ends holding the specification's cell state. -/
theorem final15 (c : Dev nD) : (dats m 0 c).arrAt 15 cfg0.N = cellArr (args m c) :=
  (dats m 0 c).arrAt_eq_of_cover 15 (cellArr (args m c)) (fun t _ => flushed15_eq m c t) cover15

/-- The second result array ends holding the specification's hidden state. -/
theorem final16 (c : Dev nD) : (dats m 0 c).arrAt 16 cfg0.N = hidArr (args m c) :=
  (dats m 0 c).arrAt_eq_of_cover 16 (hidArr (args m c)) (fun t _ => flushed16_eq m c t) cover16

/-- Every weakly fair execution of the kernel program terminates with the two results at the specification's cell and
    hidden states of the arguments as launched, and the arguments unchanged. -/
theorem run : θ_run defs (onTc (τ := τ) (main (F := Ideal))) ⟨m, fun _ => 0, ρ⟩ fun r => ∀ c : Dev nD,
      r.2.mem ((c : Thread nD τ).loc main_v12_0) = cellArr (args m c)
      ∧ r.2.mem ((c : Thread nD τ).loc main_v12_1) = hidArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Cert.KernelIdeal.Value.run_blocks m ρ)

end Cert.Lstm.Blocks

end
-- ==== Proof.lean ====
/-
  The kernel is a fused LSTM cell step: from x, h, c : [8192, 2048], eight weight matrices [2048, 2048] and four biases
  [2048] it computes, tile by tile over an 8 x 32 grid,

      gate_*  = (x W_i* + h W_h*) + b_*                      (four gates: input, forget, candidate, output)
      c'      = logistic(gate_f) * c + logistic(gate_i) * tanh(gate_g)
      h'      = logistic(gate_o) * tanh(c')

  and returns (c', h'). The reference computes the same from the four weight matrices laid side by side: one wide product
  for x, one for h, the biases end to end, the result cut back into four column bands, and the sigmoid spelled as
  1 / (1 + exp(-v)).

  On the extended reals the two are the same function of the arguments, index by index (`Cert.Lstm.cell`, `Cert.Lstm.hid`):
  every product is the sum over the contracted index of the same factors (a matrix product into a zero accumulator on one
  side, a host dot product on the other; the change of float format before the kernel's product is the identity), the two
  products and the bias are added in the same order on both sides, column g*2048 + n of the wide matrices is column n of
  the g-th matrix, and the spelled sigmoid is the logistic function by definition (the float word of 1.0 is the extended
  real 1). Nothing is rearranged, so no law that needs finite operands is used and the precondition is never opened.

  Proof/LstmSpec.lean states the function; Proof/LstmRef.lean shows the reference's results are it; Proof/LstmBody.lean
  reads the kernel body's arithmetic at a tile index; Proof/LstmBlocks.lean shows each grid point writes one tile of it
  and the tiles cover the result arrays. The frames are the generated ones; the idealization rewrote nothing.
-/
import proofs.«137950_j20074677141565_2_alg».proof.Defs
import proofs.«137950_j20074677141565_2_alg».proof.Proof.Gen.Kernel
import proofs.«137950_j20074677141565_2_alg».proof.Proof.Gen.Kernel.Skeleton
import proofs.«137950_j20074677141565_2_alg».proof.Proof.Gen.Kernel.Launch
import proofs.«137950_j20074677141565_2_alg».proof.Proof.Gen.Kernel.Points
import proofs.«137950_j20074677141565_2_alg».proof.Proof.Gen.Kernel.Frame
import proofs.«137950_j20074677141565_2_alg».proof.Proof.Gen.KernelIdeal
import proofs.«137950_j20074677141565_2_alg».proof.Proof.Gen.KernelIdeal.Skeleton
import proofs.«137950_j20074677141565_2_alg».proof.Proof.Gen.KernelIdeal.Launch
import proofs.«137950_j20074677141565_2_alg».proof.Proof.Gen.KernelIdeal.Points
import proofs.«137950_j20074677141565_2_alg».proof.Proof.Gen.KernelIdeal.Frame
import proofs.«137950_j20074677141565_2_alg».proof.Proof.Gen.ReferenceIdeal
import proofs.«137950_j20074677141565_2_alg».proof.Proof.Gen.Pre_finite_inputs
import proofs.«137950_j20074677141565_2_alg».proof.Proof.Gen.KernelIdeal.Value
import proofs.«137950_j20074677141565_2_alg».proof.Proof.Gen.ReferenceIdeal.Run
import proofs.«137950_j20074677141565_2_alg».proof.Proof.Gen.ReferenceIdeal.Read
import proofs.«137950_j20074677141565_2_alg».proof.Proof.LstmRef
import proofs.«137950_j20074677141565_2_alg».proof.Proof.LstmBlocks
import Idealize.ShloMosaic.Adequacy
import Idealize.ShloMosaic.Init

noncomputable section

namespace Cert.Proof

open Idealize.ShloMosaic Idealize.SL.Sem Cert.Lstm

/-- The kernel as printed runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as they were: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the fifteen arguments both programs end with the specification's cell state and hidden
    state of those arguments: the kernel tile by tile, the reference through its wide products. -/
theorem algebraic : Cert.algebraic_KernelIdeal_ReferenceIdeal := by
  intro m ρ m' ρ' _ hagree
  refine ⟨fun c => cellArr (Blocks.args m c), fun c => hidArr (Blocks.args m c), Blocks.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12, a13, a14⟩ := hagree c
    rw [(h c).1, Cert.ReferenceIdeal.Read.val_main_v34_eq, Ref.cell_ref, a0, a1, a2, a3, a4, a5, a6, a7, a8, a9, a10, a11, a12, a13, a14]
    rfl
  · obtain ⟨a0, a1, a2, a3, a4, a5, a6, a7, a8, a9, a10, a11, a12, a13, a14⟩ := hagree c
    rw [(h c).2.1, Cert.ReferenceIdeal.Read.val_main_v36_eq, Ref.hid_ref, a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
